-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x512 .f32 .bf16
  ∧ IdealRules.truncf_extf.Statement Cert.KernelIdeal.S1024x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x256x512 : Shape := ⟨4, ![8, 16, 256, 512]⟩
abbrev S512x512 : Shape := ⟨2, ![512, 512]⟩
abbrev S_ : Shape := ⟨0, ![]⟩

class Facts : Prop where
  bcast_S_S8x16x256x512 : S_.BroadcastsInDim S8x16x256x512 (![] : Fin 0 → Fin S8x16x256x512.rank)
  reducesTo_S8x16x256x512_S_d0_1_2_3 : S8x16x256x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8x16x256x512 .f32) (main_arg1 : FVec F S8x16x256x512 .f32) (main_arg2 : FVec F S512x512 .f32) (main_arg3 : FVec F S512x512 .f32) : IVec S_ 1 :=
  let main_v0 : FVec F S8x16x256x512 .f32 := Host.absf main_arg0
  let main_cst : FVec F S_ .f32 := constant S_ .f32 0x7F800000#32
  let main_v1 : FVec F S8x16x256x512 .f32 := broadcastInDim S8x16x256x512 ![] bcast_S_S8x16x256x512 main_cst
  let main_v2 : IVec S8x16x256x512 1 := cmpf .olt main_v0 main_v1
  let main_c : IVec S_ 1 := constantI S_ 1 1#1
  let main_v3 : IVec S_ 1 := (fun x v => Host.reduce IntOp.andi x v reducesTo_S8x16x256x512_S_d0_1_2_3 h_S_) main_v2 main_c
  let main_v4 : FVec F S8x16x256x512 .f32 := Host.absf main_arg1
  let main_cst_0 : FVec F S_ .f32 := constant S_ .f32 0x7F800000#32
  let main_v5 : FVec F S8x16x256x512 .f32 := broadcastInDim S8x16x256x512 ![] bcast_S_S8x16x256x512 main_cst_0
  let main_v6 : IVec S8x16x256x512 1 := cmpf .olt main_v4 main_v5
  let main_c_1 : IVec S_ 1 := constantI S_ 1 1#1
  let main_v7 : IVec S_ 1 := (fun x v => Host.reduce IntOp.andi x v reducesTo_S8x16x256x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8x16x256x512 : Shape := ⟨4, ![8, 16, 256, 512]⟩
abbrev S512x512 : Shape := ⟨2, ![512, 512]⟩
abbrev S32768x512 : Shape := ⟨2, ![32768, 512]⟩
abbrev S32768x1024 : Shape := ⟨2, ![32768, 1024]⟩
abbrev S1024x512 : Shape := ⟨2, ![1024, 512]⟩
abbrev S1024x1024 : Shape := ⟨2, ![1024, 1024]⟩
abbrev S1024x512x1 : Shape := ⟨3, ![1024, 512, 1]⟩
abbrev S1024x512x2 : Shape := ⟨3, ![1024, 512, 2]⟩
abbrev S8x16x256x512x2 : Shape := ⟨5, ![8, 16, 256, 512, 2]⟩

abbrev nBuf : Space → Nat
  | .hbm => 23
  | .vmem => 12
  | .smem => 0
  | _ => 0

abbrev bufTy : (tb : Table) → Fin (tcTables nBuf tb) → BufTy
  | .hbm, ⟨0, _⟩ => ⟨S8x16x256x512, .f32⟩
  | .hbm, ⟨1, _⟩ => ⟨S8x16x256x512, .f32⟩
  | .hbm, ⟨2, _⟩ => ⟨S512x512, .f32⟩
  | .hbm, ⟨3, _⟩ => ⟨S512x512, .f32⟩
  | .hbm, ⟨4, _⟩ => ⟨S32768x512, .f32⟩
  | .hbm, ⟨5, _⟩ => ⟨S32768x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .f32⟩
  | .hbm, ⟨12, _⟩ => ⟨S512x512, .bf16⟩
  | .hbm, ⟨13, _⟩ => ⟨S512x512, .bf16⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S512x512, .bf16⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S32768x1024, .f32⟩
  | .hbm, ⟨22, _⟩ => ⟨S8x16x256x512x2, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x1024, .f32⟩
  | .local _ .vmem, ⟨11, _⟩ => ⟨S1024x1024, .f32⟩
  | _, _ => ⟨S8x16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x16x256x512_S32768x512 : S8x16x256x512.ShapeCasts S32768x512
  transposes_S512x512_S512x512_1_0 : S512x512.Transposes [1, 0] S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S1024x512x1 : S1024x512.ShapeCasts S1024x512x1
  concatenates_S1024x512x1_S1024x512x1_S1024x512x2_d2 : Shape.Concatenates [S1024x512x1, S1024x512x1] S1024x512x2 2
  shapeCasts_S1024x512x2_S1024x1024 : S1024x512x2.ShapeCasts S1024x1024
  inb_S1024x1024_S1024x1024_0_0 : ∀ a, (![0, 0] : Fin 2 → Nat) a + S1024x1024.size a ≤ S1024x1024.size a
  h_S1024x1024 : 0 < S1024x1024.numel
  shapeCasts_S32768x1024_S8x16x256x512x2 : S32768x1024.ShapeCasts S8x16x256x512x2
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S32768x1024.size a
  hwx0_8 : ∀ i : grid0.Coords, EltTy.bits .f32 = 32 ∨ (Rect.block (s := S32768x1024) S1024x1024.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x16x256x512 : Shape := ⟨4, ![8, 16, 256, 512]⟩
abbrev S512x512 : Shape := ⟨2, ![512, 512]⟩
abbrev S8x16x256x512x1 : Shape := ⟨5, ![8, 16, 256, 512, 1]⟩
abbrev S8x16x256x512x2 : Shape := ⟨5, ![8, 16, 256, 512, 2]⟩

abbrev nBuf : Space → Nat
  | .hbm => 13
  | .vmem => 0
  | .smem => 0
  | _ => 0

abbrev bufTy : (tb : Table) → Fin (tcTables nBuf tb) → BufTy
  | .hbm, ⟨0, _⟩ => ⟨S8x16x256x512, .f32⟩
  | .hbm, ⟨1, _⟩ => ⟨S8x16x256x512, .f32⟩
  | .hbm, ⟨2, _⟩ => ⟨S512x512, .f32⟩
  | .hbm, ⟨3, _⟩ => ⟨S512x512, .f32⟩
  | .hbm, ⟨4, _⟩ => ⟨S8x16x256x512, .f32⟩
  | .hbm, ⟨5, _⟩ => ⟨S8x16x256x512, .f32⟩
  | .hbm, ⟨6, _⟩ => ⟨S8x16x256x512, .f32⟩
  | .hbm, ⟨7, _⟩ => ⟨S8x16x256x512, .f32⟩
  | .hbm, ⟨8, _⟩ => ⟨S8x16x256x512, .f32⟩
  | .hbm, ⟨9, _⟩ => ⟨S8x16x256x512, .f32⟩
  | .hbm, ⟨10, _⟩ => ⟨S8x16x256x512x1, .f32⟩
  | .hbm, ⟨11, _⟩ => ⟨S8x16x256x512x1, .f32⟩
  | .hbm, ⟨12, _⟩ => ⟨S8x16x256x512x2, .f32⟩
  | _, _ => ⟨S8x16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8x16x256x512_S8x16x256x512x1_0_1_2_3 : S8x16x256x512.BroadcastsInDim S8x16x256x512x1 (![0, 1, 2, 3] : Fin 4 → Fin S8x16x256x512x1.rank)
  concatenates_S8x16x256x512x1_S8x16x256x512x1_S8x16x256x512x2_d4 : Shape.Concatenates [S8x16x256x512x1, S8x16x256x512x1] S8x16x256x512x2 4
  dot_S8x16x256x512_S512x512_S8x16x256x512_3_1_012_0_n_n_wf : DotDims.WF S8x16x256x512 S512x512 S8x16x256x512 [3] [1] [0, 1, 2] [0] [] []

variable [Facts₀]

def dot_S8x16x256x512_S512x512_S8x16x256x512_3_1_012_0_n_n : DotDims S8x16x256x512 S512x512 S8x16x256x512 where
  lhsContracting := [3]
  rhsContracting := [1]
  lhsNonContracting := [0, 1, 2]
  rhsNonContracting := [0]
  lhsBatch := []
  rhsBatch := []
  wf := dot_S8x16x256x512_S512x512_S8x16x256x512_3_1_012_0_n_n_wf

class Facts : Prop extends Facts₀ where

variable [Facts]
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.ComplexDot.lean ====
/-
  The arithmetic behind a complex matrix product computed with three real products, on the extended reals.

  A complex inner product  Σ (x + iy)(p + iq)  has real part  Σ xp − Σ yq  and imaginary part  Σ xq + Σ yp.
  The three-multiplication form computes  a = Σ xp,  b = Σ yq,  s = Σ (x + y)(p + q)  and returns  a − b  and
  (s − a) − b.  Each of the three products is moreover taken in three passes over a "high" and a "low" part of
  each factor, high·high + high·low + low·high, where at exact arithmetic the high part of a factor is the factor
  itself and its low part is the factor minus itself.

  On the extended reals `u − u` is `0` only for a real `u` (`⊤ − ⊤ = ⊥`), and distributing a product over a sum and
  cancelling need real terms as well; so every law below is stated for REAL entries.  Then a low part is `0`, the
  two passes that carry one vanish, each three-pass product is the plain sum of products, and
  (s − a) − b = Σ xq + Σ yp  by the ring laws under the sum.

  `outFn` is the resulting array: for inputs `X`, `Y` of `M` rows and 512 columns and six 512 × 512 weight arrays
  (the high and low parts of `P`, of `Q` and of `P + Q`, each indexed (k, h)), the `M × 1024` array whose entry
  (R, 2h) is the real part and (R, 2h + 1) the imaginary part of row `R` against column `h`.
-/
import Idealize.ShloMosaic.PureOps.Ideal
import Idealize.ShloMosaic.Lib.ValueIdx

noncomputable section

open scoped BigOperators

namespace Cert.ComplexDot

open Idealize.ShloMosaic Idealize.ShloMosaic.ValueIdx

variable {ι : Type} [Fintype ι]

/-- The inclusion of the reals in the extended reals commutes with a finite sum. -/
theorem coe_sum (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A real number minus itself is zero in the extended reals. -/
theorem sub_self_of_real {u : EReal} (h : ∃ r : ℝ, u = (r : EReal)) : u - u = 0 := by
  obtain ⟨r, rfl⟩ := h
  rw [← EReal.coe_sub, sub_self, EReal.coe_zero]

/-- A product in three passes: high·high + high·low + low·high, the left factor's low part being the factor minus
    itself. -/
def three (x whi wlo : ι → EReal) : EReal :=
  (∑ k, x k * whi k + ∑ k, x k * wlo k) + ∑ k, (x k - x k) * whi k

/-- With real left factors and a right low part that vanishes, the three passes are the plain sum of products. -/
theorem three_eq (x w wlo : ι → EReal) (hx : ∀ k, ∃ r : ℝ, x k = (r : EReal)) (hlo : ∀ k, wlo k = 0) :
    three x w wlo = ∑ k, x k * w k := by
  unfold three
  simp only [hlo, fun k => sub_self_of_real (hx k), mul_zero, zero_mul, Finset.sum_const_zero, add_zero]

/-- The imaginary part from three products: for real entries, (Σ (x+y)(p+q) − Σ xp) − Σ yq = Σ xq + Σ yp. -/
theorem im_of_three (x y p q : ι → ℝ) :
    (∑ k, ((x k : EReal) + (y k : EReal)) * ((p k : EReal) + (q k : EReal)) - ∑ k, (x k : EReal) * (p k : EReal))
        - ∑ k, (y k : EReal) * (q k : EReal)
      = ∑ k, (x k : EReal) * (q k : EReal) + ∑ k, (y k : EReal) * (p k : EReal) := by
  simp only [← EReal.coe_add, ← EReal.coe_mul, coe_sum, ← EReal.coe_sub]
  refine congrArg _ ?_
  rw [← Finset.sum_sub_distrib, ← Finset.sum_sub_distrib, ← Finset.sum_add_distrib]
  exact Finset.sum_congr rfl fun k _ => by ring

/-! ## The array -/

/-- The column `h` an output column `c` belongs to: `c / 2`. -/
def half {M : Nat} (j : (⟨2, ![M, 1024]⟩ : Shape).Idx) : Fin 512 := ⟨(j 1).val / 2, by have := idx2_lt1 j; omega⟩

/-- The interleaved complex product, every product in three passes: see the header. -/
def outFn {M : Nat} (X Y : (⟨2, ![M, 512]⟩ : Shape).Idx → EReal)
    (Phi Plo Qhi Qlo Shi Slo : (⟨2, ![512, 512]⟩ : Shape).Idx → EReal) : (⟨2, ![M, 1024]⟩ : Shape).Idx → EReal := fun j =>
  let a := three (fun k : Fin 512 => X (ix2 (j 0) k)) (fun k => Phi (ix2 k (half j))) (fun k => Plo (ix2 k (half j)))
  let b := three (fun k : Fin 512 => Y (ix2 (j 0) k)) (fun k => Qhi (ix2 k (half j))) (fun k => Qlo (ix2 k (half j)))
  let s := three (fun k : Fin 512 => X (ix2 (j 0) k) + Y (ix2 (j 0) k)) (fun k => Shi (ix2 k (half j))) (fun k => Slo (ix2 k (half j)))
  if (j 1).val % 2 = 0 then a - b else (s - a) - b

/-- Rows `T·1024 … T·1024 + 1023` of the array are the array of those rows of the inputs. -/
theorem outFn_rows (X Y : (⟨2, ![32768, 512]⟩ : Shape).Idx → EReal) (x y : (⟨2, ![1024, 512]⟩ : Shape).Idx → EReal)
    (Phi Plo Qhi Qlo Shi Slo : (⟨2, ![512, 512]⟩ : Shape).Idx → EReal)
    (j : (⟨2, ![1024, 1024]⟩ : Shape).Idx) (J : (⟨2, ![32768, 1024]⟩ : Shape).Idx)
    (hx : ∀ k : Fin 512, x (ix2 (j 0) k) = X (ix2 (J 0) k)) (hy : ∀ k : Fin 512, y (ix2 (j 0) k) = Y (ix2 (J 0) k))
    (h1 : (J 1).val = (j 1).val) :
    outFn x y Phi Plo Qhi Qlo Shi Slo j = outFn X Y Phi Plo Qhi Qlo Shi Slo J := by
  have hh : half j = half J := Fin.ext (by show (j 1).val / 2 = (J 1).val / 2; rw [h1])
  unfold outFn
  simp only [hx, hy, hh, h1]

/-- The array for REAL entries whose low parts are the high parts minus themselves: entry (R, c) is the real part
    Σ XP − Σ YQ of row `R` against column `c / 2` for even `c`, the imaginary part Σ XQ + Σ YP for odd `c`. -/
theorem outFn_real {M : Nat} (X Y : (⟨2, ![M, 512]⟩ : Shape).Idx → EReal) (Pm Qm : (⟨2, ![512, 512]⟩ : Shape).Idx → EReal)
    (hX : ∀ i, ∃ r : ℝ, X i = (r : EReal)) (hY : ∀ i, ∃ r : ℝ, Y i = (r : EReal))
    (hP : ∀ i, ∃ r : ℝ, Pm i = (r : EReal)) (hQ : ∀ i, ∃ r : ℝ, Qm i = (r : EReal))
    (j : (⟨2, ![M, 1024]⟩ : Shape).Idx) :
    outFn X Y Pm (fun i => Pm i - Pm i) Qm (fun i => Qm i - Qm i) (fun i => Pm i + Qm i)
        (fun i => (Pm i + Qm i) - (Pm i + Qm i)) j
      = if (j 1).val % 2 = 0 then
          ∑ k : Fin 512, X (ix2 (j 0) k) * Pm (ix2 k (half j)) - ∑ k : Fin 512, Y (ix2 (j 0) k) * Qm (ix2 k (half j))
        else
          ∑ k : Fin 512, X (ix2 (j 0) k) * Qm (ix2 k (half j)) + ∑ k : Fin 512, Y (ix2 (j 0) k) * Pm (ix2 k (half j)) := by
  have hS : ∀ i, ∃ r : ℝ, Pm i + Qm i = (r : EReal) := fun i => by
    obtain ⟨a, ha⟩ := hP i; obtain ⟨b, hb⟩ := hQ i; exact ⟨a + b, by rw [ha, hb, EReal.coe_add]⟩
  have hXY : ∀ k : Fin 512, ∃ r : ℝ, X (ix2 (j 0) k) + Y (ix2 (j 0) k) = (r : EReal) := fun k => by
    obtain ⟨a, ha⟩ := hX (ix2 (j 0) k); obtain ⟨b, hb⟩ := hY (ix2 (j 0) k); exact ⟨a + b, by rw [ha, hb, EReal.coe_add]⟩
  unfold outFn
  dsimp only
  rw [three_eq _ _ _ (fun k => hX _) (fun k => sub_self_of_real (hP _)),
    three_eq _ _ _ (fun k => hY _) (fun k => sub_self_of_real (hQ _)),
    three_eq _ _ _ hXY (fun k => sub_self_of_real (hS _))]
  by_cases he : (j 1).val % 2 = 0
  · rw [if_pos he, if_pos he]
  · rw [if_neg he, if_neg he]
    choose x hx using fun k : Fin 512 => hX (ix2 (j 0) k)
    choose y hy using fun k : Fin 512 => hY (ix2 (j 0) k)
    choose p hp using fun k : Fin 512 => hP (ix2 k (half j))
    choose q hq using fun k : Fin 512 => hQ (ix2 k (half j))
    simp only [hx, hy, hp, hq]
    exact im_of_three x y p q

/-- The same at an entry given by its coordinates: row `R`, column `col`, and the output column `h = col / 2`. -/
theorem outFn_real_at {M : Nat} (X Y : (⟨2, ![M, 512]⟩ : Shape).Idx → EReal) (Pm Qm : (⟨2, ![512, 512]⟩ : Shape).Idx → EReal)
    (hX : ∀ i, ∃ r : ℝ, X i = (r : EReal)) (hY : ∀ i, ∃ r : ℝ, Y i = (r : EReal))
    (hP : ∀ i, ∃ r : ℝ, Pm i = (r : EReal)) (hQ : ∀ i, ∃ r : ℝ, Qm i = (r : EReal))
    (R : Fin M) (col : Fin 1024) (h : Fin 512) (hh : col.val / 2 = h.val) :
    outFn X Y Pm (fun i => Pm i - Pm i) Qm (fun i => Qm i - Qm i) (fun i => Pm i + Qm i)
        (fun i => (Pm i + Qm i) - (Pm i + Qm i)) (ix2 R col)
      = if col.val % 2 = 0 then
          ∑ k : Fin 512, X (ix2 R k) * Pm (ix2 k h) - ∑ k : Fin 512, Y (ix2 R k) * Qm (ix2 k h)
        else
          ∑ k : Fin 512, X (ix2 R k) * Qm (ix2 k h) + ∑ k : Fin 512, Y (ix2 R k) * Pm (ix2 k h) := by
  have e : half (ix2 R col) = h := Fin.ext hh
  rw [outFn_real X Y Pm Qm hX hY hP hQ, e]
  rfl

end Cert.ComplexDot

end
-- ==== Proof.Payload.lean ====
/-
  What the kernel body stores, as a function of the blocks it loads, at the exact instance.

  The body loads a 1024 × 512 block of each input (`x0`, `x1`) and six 512 × 512 weight arrays, forms the three
  products of the three-multiplication complex product — each in three matrix-product passes over high and low
  parts, into zero accumulators —, takes `a − b` and `(s − a) − b`, sets them side by side along a new last axis of
  extent 2 and flattens that axis into the columns: entry (r, 2h + e) of the stored 1024 × 1024 block is the
  real part (e = 0) or the imaginary part (e = 1) at (r, h).  Read at an index this is `ComplexDot.outFn` of the
  loaded blocks: a matrix product into the zero accumulator is the sum of products over the shared axis, a change
  of float format is the identity, and the two layout operations move one entry to one entry.
-/
import proofs.«119368_j18811956756731_2_alg».proof.Proof.Gen.KernelIdeal.Skeleton
import proofs.«119368_j18811956756731_2_alg».proof.Proof.LibMatDot
import proofs.«119368_j18811956756731_2_alg».proof.Proof.ComplexDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.ComplexDot

/-- The body's matrix product: rows times columns, contracting the left operand's columns with the right's rows. -/
abbrev D : DotDims S1024x512 S512x512 S1024x512 := dot_S1024x512_S512x512_S1024x512_1_0_0_1_n_n

/-- The zero accumulator. -/
abbrev Z : FVec Ideal S1024x512 .f32 := constant (F := Ideal) S1024x512 .f32 0x00000000#32

/-! ## Where the product's operand index maps read -/

theorem lhs0 (j : S1024x512.Idx) (q : D.contr.Idx) : (D.lhsIdx j q 0).val = (j 0).val := by
  unfold DotDims.lhsIdx
  rw [dif_neg (show ¬(0 : Fin S1024x512.rank) ∈ D.lhsBatch by decide), dif_pos (show (0 : Fin S1024x512.rank) ∈ D.lhsNonContracting by decide)]
  rfl
theorem lhs1 (j : S1024x512.Idx) (q : D.contr.Idx) : (D.lhsIdx j q 1).val = (q ⟨0, by decide⟩).val :=
  D.lhsIdx_val_of_single rfl j q
theorem rhs0 (j : S1024x512.Idx) (q : D.contr.Idx) : (D.rhsIdx j q 0).val = (q ⟨0, by decide⟩).val :=
  D.rhsIdx_val_of_single rfl j q
theorem rhs1 (j : S1024x512.Idx) (q : D.contr.Idx) : (D.rhsIdx j q 1).val = (j 1).val := by
  unfold DotDims.rhsIdx
  rw [dif_neg (show ¬(1 : Fin S512x512.rank) ∈ D.rhsBatch by decide), dif_pos (show (1 : Fin S512x512.rank) ∈ D.rhsNonContracting by decide)]
  rfl

/-- One matrix product into the zero accumulator, at entry (r, h): the sum over the shared axis. -/
theorem dot_apply (x : FVec Ideal S1024x512 .bf16) (w : FVec Ideal S512x512 .bf16) (r : Fin 1024) (h : Fin 512) :
    FloatOps.matmul D none x w Z (ix2 r h) = ∑ k : Fin 512, x (ix2 r k) * w (ix2 k h) :=
  mat_dot_zero D none rfl rfl lhs0 lhs1 rhs0 rhs1 x w r h

/-! ## One product in three passes -/

/-- High·high + high·low + low·high, the left factor's high part the factor itself (in the narrower format) and its
    low part the factor minus itself. -/
def mm3 (x : FVec Ideal S1024x512 .f32) (whi wlo : FVec Ideal S512x512 .bf16) : FVec Ideal S1024x512 .f32 :=
  addf (addf (FloatOps.matmul D none (truncf .bf16 x Facts₀.bitsLt_bf16_f32) whi Z)
      (FloatOps.matmul D none (truncf .bf16 x Facts₀.bitsLt_bf16_f32) wlo Z))
    (FloatOps.matmul D none (truncf .bf16 (subf x x) Facts₀.bitsLt_bf16_f32) whi Z)

theorem mm3_apply (x : FVec Ideal S1024x512 .f32) (whi wlo : FVec Ideal S512x512 .bf16) (r : Fin 1024) (h : Fin 512) :
    mm3 x whi wlo (ix2 r h)
      = three (fun k : Fin 512 => x (ix2 r k)) (fun k => whi (ix2 k h)) (fun k => wlo (ix2 k h)) := by
  unfold mm3 three
  rw [addf_apply, addf_apply, dot_apply, dot_apply, dot_apply]
  rfl

/-! ## The stored block -/

/-- What the body stores, as operations of the loaded blocks. -/
def stored (x0 x1 : FVec Ideal S1024x512 .f32) (x2 x3 x4 x5 x6 x7 : FVec Ideal S512x512 .bf16) : FVec Ideal S1024x1024 .f32 :=
  shapeCast S1024x1024
    (concatenate S1024x512x2 2
      [⟨S1024x512x1, shapeCast S1024x512x1 (subf (mm3 x0 x2 x3) (mm3 x1 x4 x5)) Facts₀.shapeCasts_S1024x512_S1024x512x1⟩,
       ⟨S1024x512x1, shapeCast S1024x512x1 (subf (subf (mm3 (addf x0 x1) x6 x7) (mm3 x0 x2 x3)) (mm3 x1 x4 x5)) Facts₀.shapeCasts_S1024x512_S1024x512x1⟩]
      Facts₀.concatenates_S1024x512x1_S1024x512x1_S1024x512x2_d2)
    Facts₀.shapeCasts_S1024x512x2_S1024x1024

theorem pay2_eq (v0 : Vec Ideal S1024x512 .f32) : k0_pay2 v0 = v0 := shapeCast_self v0 _
theorem pay3_eq (v2 : Vec Ideal S1024x512 .f32) : k0_pay3 v2 = v2 := shapeCast_self v2 _
theorem pay9_eq (v35 : Vec Ideal S512x512 .bf16) : k0_pay9 v35 = v35 := shapeCast_self v35 _
theorem pay4_eq (v0 v2 : Vec Ideal S1024x512 .f32) : k0_pay4 v0 v2 = addf (F := Ideal) (φ := .f32) v0 v2 := by
  show addf (k0_pay2 v0) (k0_pay3 v2) = _
  rw [pay2_eq, pay3_eq]
theorem pay7_eq (v0 : Vec Ideal S1024x512 .f32) (v17 v19 : Vec Ideal S512x512 .bf16) : k0_pay7 v0 v17 v19 = mm3 v0 v17 v19 := by
  show addf (addf (FloatOps.matmul D none (truncf .bf16 (k0_pay2 v0) Facts₀.bitsLt_bf16_f32) (shapeCast S512x512 v17 Facts₀.shapeCasts_S512x512_S512x512) Z)
      (FloatOps.matmul D none (truncf .bf16 (k0_pay2 v0) Facts₀.bitsLt_bf16_f32) (shapeCast S512x512 v19 Facts₀.shapeCasts_S512x512_S512x512) Z))
    (FloatOps.matmul D none (truncf .bf16 (subf (k0_pay2 v0) (k0_pay2 v0)) Facts₀.bitsLt_bf16_f32) (shapeCast S512x512 v17 Facts₀.shapeCasts_S512x512_S512x512) Z) = _
  rw [pay2_eq, shapeCast_self, shapeCast_self]
  rfl
theorem pay8_eq (v2 : Vec Ideal S1024x512 .f32) (v26 v28 : Vec Ideal S512x512 .bf16) : k0_pay8 v2 v26 v28 = mm3 v2 v26 v28 := by
  show addf (addf (FloatOps.matmul D none (truncf .bf16 (k0_pay3 v2) Facts₀.bitsLt_bf16_f32) (shapeCast S512x512 v26 Facts₀.shapeCasts_S512x512_S512x512) Z)
      (FloatOps.matmul D none (truncf .bf16 (k0_pay3 v2) Facts₀.bitsLt_bf16_f32) (shapeCast S512x512 v28 Facts₀.shapeCasts_S512x512_S512x512) Z))
    (FloatOps.matmul D none (truncf .bf16 (subf (k0_pay3 v2) (k0_pay3 v2)) Facts₀.bitsLt_bf16_f32) (shapeCast S512x512 v26 Facts₀.shapeCasts_S512x512_S512x512) Z) = _
  rw [pay3_eq, shapeCast_self, shapeCast_self]
  rfl

/-- The body's stored value is `stored` of its loads. -/
theorem pay1_eq (x0 x1 : Vec Ideal S1024x512 .f32) (x2 x3 x4 x5 x6 x7 : Vec Ideal S512x512 .bf16) :
    k0_pay1 (k0_pay5 x0 x1) (k0_pay6 x0 x1) (k0_pay7 x0 x2 x3) (k0_pay8 x1 x4 x5) (k0_pay9 x6) x7
      = stored x0 x1 x2 x3 x4 x5 x6 x7 := by
  show shapeCast S1024x1024
    (concatenate S1024x512x2 2
      [⟨S1024x512x1, shapeCast S1024x512x1 (subf (k0_pay7 x0 x2 x3) (k0_pay8 x1 x4 x5)) Facts₀.shapeCasts_S1024x512_S1024x512x1⟩,
       ⟨S1024x512x1, shapeCast S1024x512x1 (subf (subf
          (addf (addf (FloatOps.matmul D none (truncf .bf16 (k0_pay4 x0 x1) Facts₀.bitsLt_bf16_f32) (k0_pay9 x6) Z)
              (FloatOps.matmul D none (truncf .bf16 (k0_pay4 x0 x1) Facts₀.bitsLt_bf16_f32) (shapeCast S512x512 x7 Facts₀.shapeCasts_S512x512_S512x512) Z))
            (FloatOps.matmul D none (truncf .bf16 (subf (k0_pay4 x0 x1) (k0_pay4 x0 x1)) Facts₀.bitsLt_bf16_f32) (k0_pay9 x6) Z))
          (k0_pay7 x0 x2 x3)) (k0_pay8 x1 x4 x5)) Facts₀.shapeCasts_S1024x512_S1024x512x1⟩]
      Facts₀.concatenates_S1024x512x1_S1024x512x1_S1024x512x2_d2)
    Facts₀.shapeCasts_S1024x512x2_S1024x1024 = _
  rw [pay7_eq, pay8_eq, pay4_eq, pay9_eq, shapeCast_self]
  rfl

/-! ## The stored block at an index -/

/-- Entry (r, c) of the stored block is the interleaved complex product of the loaded blocks there. -/
theorem stored_apply (x0 x1 : FVec Ideal S1024x512 .f32) (x2 x3 x4 x5 x6 x7 : FVec Ideal S512x512 .bf16)
    (r : Fin 1024) (c : Fin 1024) :
    stored x0 x1 x2 x3 x4 x5 x6 x7 (ix2 r c) = outFn x0 x1 x2 x3 x4 x5 x6 x7 (ix2 r c) := by
  have hc : c.val < 1024 := c.isLt
  -- the column's pair index and which member of the pair it is
  let h : Fin 512 := ⟨c.val / 2, by omega⟩
  let e : Fin 2 := ⟨c.val % 2, by omega⟩
  have hh : half (ix2 r c) = h := rfl
  unfold stored
  rw [shapeCast_apply _ _ (ix2 r c) (ix3 r h e) (by
    rw [Shape.rowMajor_val_three, Shape.rowMajor_val_two]
    show ((r.val * 512 + c.val / 2) * 2 + c.val % 2) = r.val * 1024 + c.val
    omega)]
  unfold outFn
  dsimp only
  rw [hh]
  by_cases he : c.val % 2 = 0
  · rw [if_pos (show ((ix2 r c : (⟨2, ![1024, 1024]⟩ : Shape).Idx) 1).val % 2 = 0 from he)]
    rw [concatenate_pair_apply_left (t := S1024x512x2) (s₁ := S1024x512x1) (s₂ := S1024x512x1) (2 : Fin 3) _ _ _ (ix3 r h e) rfl (ix3 r h (0 : Fin 1)) (fun b => by
      match b with
      | ⟨0, _⟩ => rfl
      | ⟨1, _⟩ => rfl
      | ⟨2, _⟩ => show (0 : Nat) = c.val % 2; omega)]
    rw [shapeCast_apply _ _ (ix3 r h (0 : Fin 1)) (ix2 r h) (by
      rw [Shape.rowMajor_val_three, Shape.rowMajor_val_two]
      show r.val * 512 + h.val = (r.val * 512 + h.val) * 1 + 0
      omega)]
    rw [subf_apply, mm3_apply, mm3_apply]
  · rw [if_neg (show ¬ ((ix2 r c : (⟨2, ![1024, 1024]⟩ : Shape).Idx) 1).val % 2 = 0 from he)]
    rw [concatenate_pair_apply_right (t := S1024x512x2) (s₁ := S1024x512x1) (s₂ := S1024x512x1) (2 : Fin 3) _ _ _ (ix3 r h e) rfl rfl (ix3 r h (0 : Fin 1)) (fun b hb => by
      match b with
      | ⟨0, _⟩ => rfl
      | ⟨1, _⟩ => rfl
      | ⟨2, _⟩ => exact absurd rfl hb) (by show (0 : Nat) + 1 = c.val % 2; omega)]
    rw [shapeCast_apply _ _ (ix3 r h (0 : Fin 1)) (ix2 r h) (by
      rw [Shape.rowMajor_val_three, Shape.rowMajor_val_two]
      show r.val * 512 + h.val = (r.val * 512 + h.val) * 1 + 0
      omega)]
    rw [subf_apply, subf_apply, mm3_apply, mm3_apply, mm3_apply]
    rfl

end Cert.KernelIdeal.Payload

end
-- ==== Proof.Blocks.lean ====
/-
  From what one grid point writes back to the whole result array, and through the reshape after the region.

  The grid has 32 points.  Point `t` stages rows `t·1024 … t·1024 + 1023` of the two flattened inputs, the six weight
  arrays whole, and writes back rows `t·1024 … t·1024 + 1023` of the 32768 × 1024 result.  What it writes is the
  interleaved complex product of the rows it staged, and that array is computed row by row; so the block written
  at `t` is block `t` of ONE array `G`, the interleaved complex product of the whole flattened inputs.  The 32 blocks
  cover every row, hence the result array ends as `G`; the line after the region reshapes it to 8 × 16 × 256 × 512 × 2.
-/
import proofs.«119368_j18811956756731_2_alg».proof.Proof.Gen.KernelIdeal.Frame
import proofs.«119368_j18811956756731_2_alg».proof.Proof.Payload
import Idealize.ShloMosaic.Lib.StableHlo.Run
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.ComplexDot

variable (m : (ℓ : Loc nD τ sig) → Buf (Elt Ideal) ℓ) (ρ : Dev nD → PrngReg)

theorem hz2 : (![0, 0] : Fin 2 → Nat) = fun _ => 0 := funext fun a => by fin_cases a <;> rfl

/-- The result array: the interleaved complex product of the arrays the region finds. -/
def G (c : Dev nD) : S32768x1024.Idx → EReal :=
  outFn (V m c main_v0) (V m c main_v1) (V m c main_v5) (V m c main_v8) (V m c main_v9) (V m c main_v12)
    (V m c main_v13) (V m c main_v16)

/-- Where each window's block sits at point `t`: the inputs' and the result's at row block `t`, the weights' at the
    one block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 32 := lt_of_lt_of_eq t.isLt N_0

/-! ## The staged blocks -/

/-- An input block's row `r` is row `t·1024 + r` of the flattened input. -/
theorem iblk0_apply (c : Dev nD) (t : Fin cfg0.N) (r : Fin 1024) (k : Fin 512) (R : Fin 32768)
    (hR : R.val = t.val * 1024 + r.val) :
    (iblk m c 0 t : Vec Ideal S1024x512 .f32) (ix2 r k) = V m c main_v0 (ix2 R k) := by
  obtain ⟨e0, e1, -⟩ := idx_facts t
  show V m c main_v0 (((cfg0.win 0).blk t).view.emb (ix2 r k)) = V m c main_v0 (ix2 R k)
  refine congrArg _ (funext fun a => Fin.ext ?_)
  match a with
  | ⟨0, _⟩ => show win0_0.index t (0 : Fin 2) * 1024 + 1 * r.val = R.val; omega
  | ⟨1, _⟩ => show win0_0.index t (1 : Fin 2) * 512 + 1 * k.val = k.val; omega
theorem iblk1_apply (c : Dev nD) (t : Fin cfg0.N) (r : Fin 1024) (k : Fin 512) (R : Fin 32768)
    (hR : R.val = t.val * 1024 + r.val) :
    (iblk m c 1 t : Vec Ideal S1024x512 .f32) (ix2 r k) = V m c main_v1 (ix2 R k) := by
  obtain ⟨-, -, e0, e1, -⟩ := idx_facts t
  show V m c main_v1 (((cfg0.win 1).blk t).view.emb (ix2 r k)) = V m c main_v1 (ix2 R k)
  refine congrArg _ (funext fun a => Fin.ext ?_)
  match a with
  | ⟨0, _⟩ => show win0_1.index t (0 : Fin 2) * 1024 + 1 * r.val = R.val; omega
  | ⟨1, _⟩ => show win0_1.index t (1 : Fin 2) * 512 + 1 * k.val = k.val; omega

/-- A weight window's one block is the whole array. -/
theorem iblk2_eq (c : Dev nD) (t : Fin cfg0.N) : (iblk m c 2 t : Vec Ideal S512x512 .bf16) = V m c main_v5 := by
  obtain ⟨-, -, -, -, e0, e1, -⟩ := idx_facts t
  funext y
  show V m c main_v5 (((cfg0.win 2).blk t).view.emb y) = V m c main_v5 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega
theorem iblk3_eq (c : Dev nD) (t : Fin cfg0.N) : (iblk m c 3 t : Vec Ideal S512x512 .bf16) = V m c main_v8 := by
  obtain ⟨-, -, -, -, -, -, e0, e1, -⟩ := idx_facts t
  funext y
  show V m c main_v8 (((cfg0.win 3).blk t).view.emb y) = V m c main_v8 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega
theorem iblk4_eq (c : Dev nD) (t : Fin cfg0.N) : (iblk m c 4 t : Vec Ideal S512x512 .bf16) = V m c main_v9 := by
  obtain ⟨-, -, -, -, -, -, -, -, e0, e1, -⟩ := idx_facts t
  funext y
  show V m c main_v9 (((cfg0.win 4).blk t).view.emb y) = V m c main_v9 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega
theorem iblk5_eq (c : Dev nD) (t : Fin cfg0.N) : (iblk m c 5 t : Vec Ideal S512x512 .bf16) = V m c main_v12 := by
  obtain ⟨-, -, -, -, -, -, -, -, -, -, e0, e1, -⟩ := idx_facts t
  funext y
  show V m c main_v12 (((cfg0.win 5).blk t).view.emb y) = V m c main_v12 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega
theorem iblk6_eq (c : Dev nD) (t : Fin cfg0.N) : (iblk m c 6 t : Vec Ideal S512x512 .bf16) = V m c main_v13 := by
  obtain ⟨-, -, -, -, -, -, -, -, -, -, -, -, e0, e1, -⟩ := idx_facts t
  funext y
  show V m c main_v13 (((cfg0.win 6).blk t).view.emb y) = V m c main_v13 y
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 512 + 1 * (y 1).val = (y 1).val; omega
theorem iblk7_eq (c : Dev nD) (t : Fin cfg0.N) : (iblk m c 7 t : Vec Ideal S512x512 .bf16) = V m c main_v16 := by
  obtain ⟨-, -, -, -, -, -, -, -, -, -, -, -, -, -, e0, e1, -⟩ := idx_facts t
  funext y
  show V m c main_v16 (((cfg0.win 7).blk t).view.emb y) = V m c main_v16 y
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 512 + 1 * (y 1).val = (y 1).val; omega

/-! ## What a point writes back -/

/-- Point `t` writes back block `t` of `G`. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  unfold out0_8
  rw [View.canon_unit_zero hz2]
  simp only [View.ld_unit_zero (S := S1024x512) hz2, View.ld_unit_zero (S := S512x512) hz2]
  rw [Payload.pay1_eq, iblk2_eq, iblk3_eq, iblk4_eq, iblk5_eq, iblk6_eq, iblk7_eq]
  have ht := t_lt t
  obtain ⟨-, -, -, -, -, -, -, -, -, -, -, -, -, -, -, -, e0, e1⟩ := idx_facts t
  funext j
  obtain ⟨r, cc, rfl⟩ : ∃ (r : Fin 1024) (cc : Fin 1024), j = ix2 r cc := ⟨j 0, j 1, eq_ix2 j⟩
  have hr : r.val < 1024 := r.isLt
  show Payload.stored (iblk m c 0 t) (iblk m c 1 t) (V m c main_v5) (V m c main_v8) (V m c main_v9) (V m c main_v12)
      (V m c main_v13) (V m c main_v16) (ix2 r cc) = G m c (((cfg0.win 8).blk t).view.emb (ix2 r cc))
  rw [Payload.stored_apply]
  unfold G
  refine outFn_rows _ _ _ _ _ _ _ _ _ _ (ix2 r cc) _ (fun k => ?_) (fun k => ?_) ?_
  · exact iblk0_apply m c t r k _ (by show win0_8.index t (0 : Fin 2) * 1024 + 1 * r.val = t.val * 1024 + r.val; omega)
  · exact iblk1_apply m c t r k _ (by show win0_8.index t (0 : Fin 2) * 1024 + 1 * r.val = t.val * 1024 + r.val; omega)
  · show win0_8.index t (1 : Fin 2) * 1024 + 1 * cc.val = cc.val
    omega

/-! ## The cover, and the array after the region -/

/-- An index is in point `t`'s block iff its row is among the block's rows (and its column among all columns). -/
theorem mem_blk8 (t : Fin cfg0.N) (i : S32768x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v17).slice (win0_8.rect t)).set ↔ _
  rw [View.set_slice_whole, Rect.mem_set_unit]
  exact Iff.rfl

/-- Every index is in the block of the point its row falls to. -/
theorem cover (i : S32768x1024.Idx) :
    ∃ t : Fin cfg0.N, (cfg0.win 8).flush t = true ∧ i ∈ ((cfg0.win 8).blk t).view.set := by
  have hi0 : (i 0).val < 32768 := (i 0).isLt
  have hi1 : (i 1).val < 1024 := (i 1).isLt
  have hN : cfg0.N = 32 := N_0
  let t : Fin cfg0.N := ⟨(i 0).val / 1024, by rw [hN]; omega⟩
  have htv : t.val = (i 0).val / 1024 := rfl
  obtain ⟨-, -, -, -, -, -, -, -, -, -, -, -, -, -, -, -, e0, e1⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The result array after the region is `G`. -/
theorem final (c : Dev nD) : (dats m 0 c).arrAt 8 cfg0.N = G m c :=
  (dats m 0 c).arrAt_eq_of_cover 8 (G m c) (fun t _ => flushed_eq m c t) cover

/-! ## The line after the region, and the run -/

/-- The program's result: the result array reshaped to 8 × 16 × 256 × 512 × 2. -/
theorem tail_eq (c : Dev nD) :
    Pipeline.afterTail₀ cfgs (dats m) 0 (V0 m) [hostOps1] c main_v18
      = shapeCast S8x16x256x512x2 (G m c) Facts₀.shapeCasts_S32768x1024_S8x16x256x512x2 := by
  unfold Pipeline.afterTail₀
  show StableHlo.after hostOps1 _ (Proc.devRef .tc main_v18) = _
  after_results
  exact congrArg (fun A => shapeCast S8x16x256x512x2 A Facts₀.shapeCasts_S32768x1024_S8x16x256x512x2)
    ((Pipeline.withArrays_arr spec0 launch0.win.arr_inj c _ _ 8).trans (final m c))

/-- Every weakly fair execution of the program terminates with its result at the reshaped `G` and its arguments
    unchanged. -/
theorem run : θ_run defs (onTc (τ := τ) (main (F := Ideal))) ⟨m, fun _ => 0, ρ⟩ fun r => ∀ c : Dev nD,
      r.2.mem ((c.tc : Thread nD τ).loc main_v18) = shapeCast S8x16x256x512x2 (G m c) Facts₀.shapeCasts_S32768x1024_S8x16x256x512x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Blocks

end
-- ==== Proof.RefSide.lean ====
/-
  The reference's result at an index.

  The reference takes the four real matrix products of the inputs' rows with the weights' rows, forms the real part
  Σ XP − Σ YQ and the imaginary part Σ XQ + Σ YP, and joins the two along a new last axis of extent 2.  So its entry
  (b, c, d, h, e) is the real part (e = 0) or the imaginary part (e = 1) of row (b, c, d) against weight row `h`.
-/
import proofs.«119368_j18811956756731_2_alg».proof.Proof.Gen.ReferenceIdeal.Read
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- Dropping the unit last axis of an index keeps its other coordinates. -/
theorem drop_unit (b : Fin 8) (c' : Fin 16) (d : Fin 256) (h : Fin 512) (u : Fin 1) :
    idx_main_v6 (ix5 b c' d h u) = ix4 b c' d h := funext fun a => Fin.ext (by
  match a with
  | ⟨0, _⟩ => rfl
  | ⟨1, _⟩ => rfl
  | ⟨2, _⟩ => rfl
  | ⟨3, _⟩ => rfl)

/-- A product's left operand is read along the input's row, -/
theorem left_idx (b : Fin 8) (c' : Fin 16) (d : Fin 256) (h : Fin 512) (k : Fin 512) :
    lidx_main_v0 (ix4 b c' d h) k = ix4 b c' d k := funext fun a => Fin.ext (by
  match a with
  | ⟨0, _⟩ => rfl
  | ⟨1, _⟩ => rfl
  | ⟨2, _⟩ => rfl
  | ⟨3, _⟩ => rfl)
/-- and its right operand along the weights' row `h`. -/
theorem right_idx (b : Fin 8) (c' : Fin 16) (d : Fin 256) (h : Fin 512) (k : Fin 512) :
    ridx_main_v0 (ix4 b c' d h) k = ix2 h k := funext fun a => Fin.ext (by
  match a with
  | ⟨0, _⟩ => rfl
  | ⟨1, _⟩ => rfl)

/-- One of the reference's four products at (b, c, d, h): row (b, c, d) of the input against row `h` of the weights. -/
theorem dot_apply (x : FVec Ideal S8x16x256x512 .f32) (w : FVec Ideal S512x512 .f32)
    (b : Fin 8) (c' : Fin 16) (d : Fin 256) (h : Fin 512) :
    val_main_v0 (F := Ideal) x w (ix4 b c' d h) = ∑ k : Fin 512, x (ix4 b c' d k) * w (ix2 h k) := by
  rw [val_main_v0_apply]
  simp only [left_idx, right_idx]

/-- The reference's entry (b, c, d, h, e). -/
theorem ref_apply (x0 x1 : FVec Ideal S8x16x256x512 .f32) (x2 x3 : FVec Ideal S512x512 .f32)
    (b : Fin 8) (c' : Fin 16) (d : Fin 256) (h : Fin 512) (e : Fin 2) :
    val_main_v8 (F := Ideal) x0 x1 x2 x3 (ix5 b c' d h e)
      = if e.val = 0 then
          ∑ k : Fin 512, x0 (ix4 b c' d k) * x2 (ix2 h k) - ∑ k : Fin 512, x1 (ix4 b c' d k) * x3 (ix2 h k)
        else
          ∑ k : Fin 512, x0 (ix4 b c' d k) * x3 (ix2 h k) + ∑ k : Fin 512, x1 (ix4 b c' d k) * x2 (ix2 h k) := by
  have he2 : e.val < 2 := e.isLt
  unfold val_main_v8
  by_cases he : e.val = 0
  · rw [if_pos he, concatenate_pair_apply_left (t := S8x16x256x512x2) (s₁ := S8x16x256x512x1) (s₂ := S8x16x256x512x1)
      (4 : Fin 5) _ _ _ (ix5 b c' d h e) rfl (ix5 b c' d h (0 : Fin 1)) (fun a => by
        match a with
        | ⟨0, _⟩ => rfl
        | ⟨1, _⟩ => rfl
        | ⟨2, _⟩ => rfl
        | ⟨3, _⟩ => rfl
        | ⟨4, _⟩ => show (0 : Nat) = e.val; omega)]
    rw [val_main_v6_apply, drop_unit, val_main_v2_apply]
    show val_main_v0 (F := Ideal) x0 x2 (ix4 b c' d h) - val_main_v0 (F := Ideal) x1 x3 (ix4 b c' d h) = _
    rw [dot_apply, dot_apply]
  · rw [if_neg he, concatenate_pair_apply_right (t := S8x16x256x512x2) (s₁ := S8x16x256x512x1) (s₂ := S8x16x256x512x1)
      (4 : Fin 5) _ _ _ (ix5 b c' d h e) rfl rfl (ix5 b c' d h (0 : Fin 1)) (fun a ha => by
        match a with
        | ⟨0, _⟩ => rfl
        | ⟨1, _⟩ => rfl
        | ⟨2, _⟩ => rfl
        | ⟨3, _⟩ => rfl
        | ⟨4, _⟩ => exact absurd rfl ha) (by show (0 : Nat) + 1 = e.val; omega)]
    rw [val_main_v7_apply]
    show val_main_v5 (F := Ideal) x0 x1 x2 x3 (idx_main_v6 (ix5 b c' d h (0 : Fin 1))) = _
    rw [drop_unit, val_main_v5_apply]
    show val_main_v0 (F := Ideal) x0 x3 (ix4 b c' d h) + val_main_v0 (F := Ideal) x1 x2 (ix4 b c' d h) = _
    rw [dot_apply, dot_apply]

end Cert.ReferenceIdeal.RefValue

end
-- ==== Proof.HostIn.lean ====
/-
  What the region finds in the arrays its windows stage, as operations of the argument arrays.

  Before the region the host flattens the two inputs to 32768 × 512, transposes the two weight matrices, adds the
  transposes, and splits each of the three weight arrays into a high part (the array in the narrower format) and a
  low part (the array minus its high part widened back, in the narrower format).  No line writes an argument
  array.  At the exact instance a change of float format is the identity, so a high part is the array and a low
  part the array minus itself, entry by entry.
-/
import proofs.«119368_j18811956756731_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostIn

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The real-part input, flattened. -/
abbrev X (c : Dev nD) : FVec Ideal S32768x512 .f32 :=
  shapeCast S32768x512 (m ((c : Thread nD τ).loc main_arg0)) Facts₀.shapeCasts_S8x16x256x512_S32768x512
/-- The imaginary-part input, flattened. -/
abbrev Y (c : Dev nD) : FVec Ideal S32768x512 .f32 :=
  shapeCast S32768x512 (m ((c : Thread nD τ).loc main_arg1)) Facts₀.shapeCasts_S8x16x256x512_S32768x512
/-- The real-part weights, transposed: entry (k, h) is the weight of output column `h` at input column `k`. -/
abbrev Pt (c : Dev nD) : FVec Ideal S512x512 .f32 :=
  transpose S512x512 [1, 0] (m ((c : Thread nD τ).loc main_arg2)) Facts₀.transposes_S512x512_S512x512_1_0
/-- The imaginary-part weights, transposed. -/
abbrev Qt (c : Dev nD) : FVec Ideal S512x512 .f32 :=
  transpose S512x512 [1, 0] (m ((c : Thread nD τ).loc main_arg3)) Facts₀.transposes_S512x512_S512x512_1_0

theorem V_v0 (c : Dev nD) : (V m c main_v0 : S32768x512.Idx → EReal) = X m c := by
  show StableHlo.after hostOps0 (fun b => m (c, b)) (Proc.devRef .tc main_v0) = _
  after_results
  rfl
theorem V_v1 (c : Dev nD) : (V m c main_v1 : S32768x512.Idx → EReal) = Y m c := by
  show StableHlo.after hostOps0 (fun b => m (c, b)) (Proc.devRef .tc main_v1) = _
  after_results
  rfl
/-- The high part of the real weights is the transposed array. -/
theorem V_v5 (c : Dev nD) : (V m c main_v5 : S512x512.Idx → EReal) = Pt m c := by
  show StableHlo.after hostOps0 (fun b => m (c, b)) (Proc.devRef .tc main_v5) = _
  after_results
  rfl
/-- Their low part is the array minus itself. -/
theorem V_v8 (c : Dev nD) : (V m c main_v8 : S512x512.Idx → EReal) = fun i => Pt m c i - Pt m c i := by
  show StableHlo.after hostOps0 (fun b => m (c, b)) (Proc.devRef .tc main_v8) = _
  after_results
  rfl
theorem V_v9 (c : Dev nD) : (V m c main_v9 : S512x512.Idx → EReal) = Qt m c := by
  show StableHlo.after hostOps0 (fun b => m (c, b)) (Proc.devRef .tc main_v9) = _
  after_results
  rfl
theorem V_v12 (c : Dev nD) : (V m c main_v12 : S512x512.Idx → EReal) = fun i => Qt m c i - Qt m c i := by
  show StableHlo.after hostOps0 (fun b => m (c, b)) (Proc.devRef .tc main_v12) = _
  after_results
  rfl
/-- The high part of the summed weights is the sum of the transposes. -/
theorem V_v13 (c : Dev nD) : (V m c main_v13 : S512x512.Idx → EReal) = fun i => Pt m c i + Qt m c i := by
  show StableHlo.after hostOps0 (fun b => m (c, b)) (Proc.devRef .tc main_v13) = _
  after_results
  rfl
theorem V_v16 (c : Dev nD) : (V m c main_v16 : S512x512.Idx → EReal)
    = fun i => (Pt m c i + Qt m c i) - (Pt m c i + Qt m c i) := by
  show StableHlo.after hostOps0 (fun b => m (c, b)) (Proc.devRef .tc main_v16) = _
  after_results
  rfl

/-! ## The flattened inputs and the transposed weights at an index -/

/-- Row `(b·16 + c')·256 + d` of a flattened input is row (b, c', d) of the input. -/
theorem flat_apply (a : S8x16x256x512.Idx → EReal) (b : Fin 8) (c' : Fin 16) (d : Fin 256) (k : Fin 512)
    (R : Fin 32768) (hR : R.val = (b.val * 16 + c'.val) * 256 + d.val) :
    shapeCast S32768x512 a Facts₀.shapeCasts_S8x16x256x512_S32768x512 (ix2 R k) = a (ix4 b c' d k) :=
  shapeCast_apply _ _ (ix2 R k) (ix4 b c' d k) (by
    rw [Shape.rowMajor_val_four, Shape.rowMajor_val_two]
    show ((b.val * 16 + c'.val) * 256 + d.val) * 512 + k.val = R.val * 512 + k.val
    rw [hR])

/-- Entry (k, h) of a transposed weight array is entry (h, k) of the array. -/
theorem transposed_apply (w : S512x512.Idx → EReal) (k h : Fin 512) :
    transpose S512x512 [1, 0] w Facts₀.transposes_S512x512_S512x512_1_0 (ix2 k h) = w (ix2 h k) :=
  transpose_apply _ _ _ (ix2 k h) (ix2 h k) (fun b => by
    match b with
    | ⟨0, _⟩ => rfl
    | ⟨1, _⟩ => rfl)

/-- Every entry of a flattened or transposed array is an entry of the array. -/
theorem flat_real (a : S8x16x256x512.Idx → EReal) (ha : ∀ i, ∃ r : ℝ, a i = (r : EReal)) (i : S32768x512.Idx) :
    ∃ r : ℝ, shapeCast S32768x512 a Facts₀.shapeCasts_S8x16x256x512_S32768x512 i = (r : EReal) := ha _
theorem transposed_real (w : S512x512.Idx → EReal) (hw : ∀ i, ∃ r : ℝ, w i = (r : EReal)) (i : S512x512.Idx) :
    ∃ r : ℝ, transpose S512x512 [1, 0] w Facts₀.transposes_S512x512_S512x512_1_0 i = (r : EReal) := hw _

end Cert.KernelIdeal.HostIn

end
-- ==== Proof.Bridge.lean ====
/-
  The two programs compute one function of the argument arrays.

  The kernel's program ends with the 32768 × 1024 interleaved complex product of the flattened inputs and the
  transposed weights (every product in three passes over high and low parts) reshaped to 8 × 16 × 256 × 512 × 2;
  the reference ends with the real and imaginary parts of the plain complex product joined along a last axis.
  Entry (b, c, d, h, e) of the reshaped array is entry (R, 2h + e) of the flat one, R = (b·16 + c)·256 + d; for REAL
  entries that is the real part (e = 0) or the imaginary part (e = 1) of flattened row R against transposed column
  `h` (`ComplexDot.outFn_real_at`); row R of a flattened input is row (b, c, d) of the input, and entry (k, h) of a
  transposed weight array is entry (h, k) of the array: the reference's entry.
-/
import proofs.«119368_j18811956756731_2_alg».proof.Proof.RefSide
import proofs.«119368_j18811956756731_2_alg».proof.Proof.HostIn
import proofs.«119368_j18811956756731_2_alg».proof.Proof.ComplexDot

noncomputable section

open scoped BigOperators

namespace Cert.Bridge

open Idealize.ShloMosaic Idealize.ShloMosaic.ValueIdx Cert.ComplexDot
open Cert.KernelIdeal (S32768x512 S32768x1024 S512x512 S8x16x256x512 S8x16x256x512x2 Facts₀)
open Cert.KernelIdeal.Gen

/-- The kernel program's result as a function of four argument arrays. -/
def kernelFn (a0 a1 : S8x16x256x512.Idx → EReal) (a2 a3 : S512x512.Idx → EReal) : S8x16x256x512x2.Idx → EReal :=
  shapeCast S8x16x256x512x2
    (outFn (shapeCast S32768x512 a0 Facts₀.shapeCasts_S8x16x256x512_S32768x512)
      (shapeCast S32768x512 a1 Facts₀.shapeCasts_S8x16x256x512_S32768x512)
      (transpose S512x512 [1, 0] a2 Facts₀.transposes_S512x512_S512x512_1_0)
      (fun i => transpose S512x512 [1, 0] a2 Facts₀.transposes_S512x512_S512x512_1_0 i
        - transpose S512x512 [1, 0] a2 Facts₀.transposes_S512x512_S512x512_1_0 i)
      (transpose S512x512 [1, 0] a3 Facts₀.transposes_S512x512_S512x512_1_0)
      (fun i => transpose S512x512 [1, 0] a3 Facts₀.transposes_S512x512_S512x512_1_0 i
        - transpose S512x512 [1, 0] a3 Facts₀.transposes_S512x512_S512x512_1_0 i)
      (fun i => transpose S512x512 [1, 0] a2 Facts₀.transposes_S512x512_S512x512_1_0 i
        + transpose S512x512 [1, 0] a3 Facts₀.transposes_S512x512_S512x512_1_0 i)
      (fun i => (transpose S512x512 [1, 0] a2 Facts₀.transposes_S512x512_S512x512_1_0 i
          + transpose S512x512 [1, 0] a3 Facts₀.transposes_S512x512_S512x512_1_0 i)
        - (transpose S512x512 [1, 0] a2 Facts₀.transposes_S512x512_S512x512_1_0 i
          + transpose S512x512 [1, 0] a3 Facts₀.transposes_S512x512_S512x512_1_0 i)))
    Facts₀.shapeCasts_S32768x1024_S8x16x256x512x2

/-- For real entries the kernel program's function is the reference's. -/
theorem kernelFn_eq (a0 a1 : S8x16x256x512.Idx → EReal) (a2 a3 : S512x512.Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    kernelFn a0 a1 a2 a3 = Cert.ReferenceIdeal.Read.val_main_v8 (F := Ideal) a0 a1 a2 a3 := by
  funext i
  obtain ⟨b, c', d, h, e, rfl⟩ : ∃ (b : Fin 8) (c' : Fin 16) (d : Fin 256) (h : Fin 512) (e : Fin 2), i = ix5 b c' d h e :=
    ⟨i 0, i 1, i 2, i 3, i 4, eq_ix5 i⟩
  have hb : b.val < 8 := b.isLt
  have hc : c'.val < 16 := c'.isLt
  have hd : d.val < 256 := d.isLt
  have hh : h.val < 512 := h.isLt
  have he : e.val < 2 := e.isLt
  let R : Fin 32768 := ⟨(b.val * 16 + c'.val) * 256 + d.val, by omega⟩
  let col : Fin 1024 := ⟨2 * h.val + e.val, by omega⟩
  unfold kernelFn
  rw [shapeCast_apply _ _ (ix5 b c' d h e) (ix2 R col) (by
    rw [Shape.rowMajor_val_five, Shape.rowMajor_val_two]
    show ((b.val * 16 + c'.val) * 256 + d.val) * 1024 + (2 * h.val + e.val)
      = ((((b.val * 16 + c'.val) * 256 + d.val) * 512 + h.val) * 2 + e.val)
    omega)]
  rw [outFn_real_at _ _ _ _ (Cert.KernelIdeal.HostIn.flat_real a0 h0) (Cert.KernelIdeal.HostIn.flat_real a1 h1)
    (Cert.KernelIdeal.HostIn.transposed_real a2 h2) (Cert.KernelIdeal.HostIn.transposed_real a3 h3) R col h
    (by show (2 * h.val + e.val) / 2 = h.val; omega)]
  rw [Cert.ReferenceIdeal.RefValue.ref_apply]
  simp only [Cert.KernelIdeal.HostIn.flat_apply _ b c' d _ R rfl]
  by_cases hz : e.val = 0
  · rw [if_pos hz, if_pos (show (2 * h.val + e.val) % 2 = 0 by omega)]
    exact congrArg₂ (· - ·)
      (Finset.sum_congr rfl fun k _ => by rw [Cert.KernelIdeal.HostIn.transposed_apply])
      (Finset.sum_congr rfl fun k _ => by rw [Cert.KernelIdeal.HostIn.transposed_apply])
  · rw [if_neg hz, if_neg (show ¬ (2 * h.val + e.val) % 2 = 0 by omega)]
    exact congrArg₂ (· + ·)
      (Finset.sum_congr rfl fun k _ => by rw [Cert.KernelIdeal.HostIn.transposed_apply])
      (Finset.sum_congr rfl fun k _ => by rw [Cert.KernelIdeal.HostIn.transposed_apply])

end Cert.Bridge

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  The precondition, read: every entry of the four argument arrays is a real number.

  The precondition is the conjunction of four tests, one per array: "every entry has absolute value below +∞".
  Each test is an `and`-reduction over the whole array of the entrywise comparison `|x| < +∞`; a reduction by `and`
  that is true was true at every entry; and an extended real whose absolute value `max x (−x)` is below `⊤` is
  neither `⊤` nor `⊥`, that is, a real number.
-/
import proofs.«119368_j18811956756731_2_alg».proof.Proof.Gen.Pre_finite_inputs
import proofs.«119368_j18811956756731_2_alg».proof.Proof.LibEReal
import Idealize.ShloMosaic.Lib.ReduceAll
import Idealize.ShloMosaic.Lib.ValueIdx
import Idealize.ShloMosaic.Lib.Affine

noncomputable section

namespace Cert.Pre_finite_inputs.Read

open Cert.Pre_finite_inputs Cert.Pre_finite_inputs.Gen Idealize.ShloMosaic Idealize.ShloMosaic.ValueIdx

instance : Subsingleton S_.Idx := ⟨fun a b => funext fun d => d.elim0⟩

/-- An entry whose test `|x| < +∞` came out true is a real number. -/
theorem real_of_test (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) :=
  Cert.LibEReal.real_of_abs_lt_top x (Cert.LibEReal.lt_top_of_cmp _ h)

/-- The precondition gives: every entry of every argument array is a real number. -/
theorem real_of_pre (a0 a1 : FVec Ideal S8x16x256x512 .f32) (a2 a3 : FVec Ideal S512x512 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1, andi] at h0
  rw [IntOp.andi_eq_one, IntOp.andi_eq_one, IntOp.andi_eq_one] at h0
  obtain ⟨⟨⟨r0, r1⟩, r2⟩, r3⟩ := h0
  exact ⟨fun i => real_of_test _ (Host.reduce_andi_all _ _ _ _ ix0 r0 i),
    fun i => real_of_test _ (Host.reduce_andi_all _ _ _ _ ix0 r1 i),
    fun i => real_of_test _ (Host.reduce_andi_all _ _ _ _ ix0 r2 i),
    fun i => real_of_test _ (Host.reduce_andi_all _ _ _ _ ix0 r3 i)⟩

end Cert.Pre_finite_inputs.Read

end
-- ==== Proof.lean ====
/-
  A 512-point complex linear map  y = x · Wᵀ  of 32768 rows, computed by a kernel with three real matrix products
  (real part a − b, imaginary part (s − a) − b, where a = x_re·P, b = x_im·Q, s = (x_re + x_im)·(P + Q)), each taken in
  three passes over high and low parts of its factors, against the reference's four products
  (x_re·P − x_im·Q, x_re·Q + x_im·P).

  At the exact instance a high part is the factor and a low part the factor minus itself; for FINITE inputs — the
  precondition — a low part is zero, each three-pass product is the plain product, and the three-multiplication
  identity is the ring laws under the sum (Proof/ComplexDot.lean).  On the extended reals none of this holds at an
  infinite entry (⊤ − ⊤ = ⊥), which is why the precondition is used.

  The kernel's side: what one grid point stores is the interleaved complex product of the rows it staged
  (Proof/Payload.lean), the 32 row blocks are the blocks of one array and cover it (Proof/Blocks.lean), the arrays
  the region finds are the flattened inputs and the transposed, summed and split weights (Proof/HostIn.lean), and
  the line after the region reshapes the result.  The reference's side is its run read index by index
  (Proof/RefSide.lean).  Proof/Bridge.lean: for real entries the two are one function of the arguments.
  Proof/Finite.lean reads the precondition.  The three frames are the programs' runs with the results dropped; the
  three format round trips the idealization removed are its rule's statement.
-/
import proofs.«119368_j18811956756731_2_alg».proof.Defs
import proofs.«119368_j18811956756731_2_alg».proof.Proof.Gen.Kernel
import proofs.«119368_j18811956756731_2_alg».proof.Proof.Gen.Kernel.Skeleton
import proofs.«119368_j18811956756731_2_alg».proof.Proof.Gen.Kernel.Launch
import proofs.«119368_j18811956756731_2_alg».proof.Proof.Gen.Kernel.Points
import proofs.«119368_j18811956756731_2_alg».proof.Proof.Gen.Kernel.Frame
import proofs.«119368_j18811956756731_2_alg».proof.Proof.Gen.KernelIdeal
import proofs.«119368_j18811956756731_2_alg».proof.Proof.Gen.KernelIdeal.Skeleton
import proofs.«119368_j18811956756731_2_alg».proof.Proof.Gen.KernelIdeal.Launch
import proofs.«119368_j18811956756731_2_alg».proof.Proof.Gen.KernelIdeal.Points
import proofs.«119368_j18811956756731_2_alg».proof.Proof.Gen.KernelIdeal.Frame
import proofs.«119368_j18811956756731_2_alg».proof.Proof.Gen.ReferenceIdeal
import proofs.«119368_j18811956756731_2_alg».proof.Proof.Gen.ReferenceIdeal.Run
import proofs.«119368_j18811956756731_2_alg».proof.Proof.Gen.ReferenceIdeal.Read
import proofs.«119368_j18811956756731_2_alg».proof.Proof.Gen.Pre_finite_inputs
import proofs.«119368_j18811956756731_2_alg».proof.Proof.Blocks
import proofs.«119368_j18811956756731_2_alg».proof.Proof.Bridge
import proofs.«119368_j18811956756731_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The three narrow-and-widen-back round trips the idealization removed, each its rule's statement. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- The kernel program's result, for finite arguments, is the reference's function of them. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    shapeCast Cert.KernelIdeal.S8x16x256x512x2 (Cert.KernelIdeal.Blocks.G m c) Cert.KernelIdeal.Facts₀.shapeCasts_S32768x1024_S8x16x256x512x2
      = Cert.ReferenceIdeal.Read.val_main_v8 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨h0, h1, h2, h3⟩ := Cert.Pre_finite_inputs.Read.real_of_pre _ _ _ _ (hpre c)
  unfold Cert.KernelIdeal.Blocks.G
  rw [Cert.KernelIdeal.HostIn.V_v0, Cert.KernelIdeal.HostIn.V_v1, Cert.KernelIdeal.HostIn.V_v5, Cert.KernelIdeal.HostIn.V_v8,
    Cert.KernelIdeal.HostIn.V_v9, Cert.KernelIdeal.HostIn.V_v12, Cert.KernelIdeal.HostIn.V_v13, Cert.KernelIdeal.HostIn.V_v16]
  exact Cert.Bridge.kernelFn_eq _ _ _ _ h0 h1 h2 h3

/-- Both idealized programs end with the reference's function of the (agreeing) arguments. -/
theorem algebraic : Cert.algebraic_KernelIdeal_ReferenceIdeal := by
  intro m ρ m' ρ' hpre hagree
  refine ⟨fun c => Cert.ReferenceIdeal.Read.val_main_v8 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_value m hpre c), (h c).2⟩)
      (Cert.KernelIdeal.Blocks.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
